-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S4096x256 : Shape := ⟨2, ![4096, 256]⟩
abbrev S256x256 : Shape := ⟨2, ![256, 256]⟩
abbrev S1x256 : Shape := ⟨2, ![1, 256]⟩
abbrev S256 : Shape := ⟨1, ![256]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  ![arg0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S1x4096 : S4096.ShapeCasts S1x4096
  iota_S256x256_d0_w32 : S256x256.Iotas .tc 32 [0]
  natLt_1_32 : 1 < 32
  iota_S256x256_d1_w32 : S256x256.Iotas .tc 32 [1]
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S256 : S4096x256.Reduces [0] S256
  shapeCasts_S256_S1x256 : S256.ShapeCasts S1x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x4096.size a
  hwx0_1 : ∀ i : grid0.Coords, EltTy.bits .f32 = 32 ∨ (Rect.block (s := S4096x4096) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x4096.size a
  hwx0_5 : ∀ i : grid0.Coords, EltTy.bits .f32 = 32 ∨ (Rect.block (s := S4096x4096) S4096x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S64x1x64x1, .f32⟩
  | .hbm, ⟨15, _⟩ => ⟨S1x64x1x64, .f32⟩
  | .hbm, ⟨16, _⟩ => ⟨S64x64x64x64, .f32⟩
  | .hbm, ⟨17, _⟩ => ⟨S64x64x64x64, .f32⟩
  | .hbm, ⟨18, _⟩ => ⟨S64x64x64x64, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LayerSpec.lean ====
/-
  The layer as one function of its five argument arrays, entry by entry, on the extended reals.

  A dense layer whose weight matrix is cut down to its 64 × 64 diagonal squares
  (entry (k, j) of the weight counts only when k and j lie in the same square, k / 64 = j / 64),
  a bias row added, then every output column normalised over the 4096 rows of the batch
  (mean and biased variance of the column, a small constant added under the reciprocal square root),
  scaled and shifted per column, and cut off below at zero.

  Two readings of the dense stage are stated: over the whole contraction axis of 4096 entries, and
  over the 256 entries of one group of four adjacent squares.  Outside the group of its column every
  term of the long sum carries the factor 0, so the two sums agree (`dense_of_group`); no entry has
  to be finite for that, since 0 absorbs every extended real under multiplication.
-/
import Idealize.ShloMosaic.PureOps.Ideal
import Idealize.ShloMosaic.Lib.ValueIdx

noncomputable section

namespace Cert.Layer

open Idealize.ShloMosaic Idealize.ShloMosaic.ValueIdx

/-- 1 where row `k` and column `j` lie in the same 64-wide diagonal square, 0 elsewhere. -/
def sameSquare (k j : ℕ) : EReal := if k / 64 = j / 64 then 1 else 0

theorem sameSquare_of_eq {k j : ℕ} (h : k / 64 = j / 64) : sameSquare k j = 1 := if_pos h
theorem sameSquare_of_ne {k j : ℕ} (h : k / 64 ≠ j / 64) : sameSquare k j = 0 := if_neg h

/-- The masked dense stage read over the whole contraction axis: entry (r, j). -/
def dense (x w : (⟨2, ![4096, 4096]⟩ : Shape).Idx → EReal) (b : (⟨1, ![4096]⟩ : Shape).Idx → EReal)
    (r j : Fin 4096) : EReal :=
  (∑ k : Fin 4096, x (ix2 r k) * (w (ix2 k j) * sameSquare k.val j.val)) + b (ix1 j)

/-- The same stage read inside one group of 256 columns: a 4096 × 256 slab of `x`, the 256 × 256 diagonal
    block of the weights and the group's 256 bias entries, at local entry (r, c). -/
def denseGroup (xs : (⟨2, ![4096, 256]⟩ : Shape).Idx → EReal) (ws : (⟨2, ![256, 256]⟩ : Shape).Idx → EReal)
    (bs : (⟨2, ![1, 256]⟩ : Shape).Idx → EReal) (r : Fin 4096) (c : Fin 256) : EReal :=
  (∑ k : Fin 256, xs (ix2 r k) * (ws (ix2 k c) * sameSquare k.val c.val)) + bs (ix2 (0 : Fin 1) c)

/-- The mean of a column of 4096 entries; the divisor is the float word for 4096 the programs carry, read as it stands. -/
def colMean (col : Fin 4096 → EReal) : EReal :=
  Ideal.div (∑ q : Fin 4096, col q) (Ideal.ofBits .f32 0x45800000#32)

/-- The biased variance of a column: the mean of the squared distances from the column's mean. -/
def colVar (col : Fin 4096 → EReal) : EReal :=
  Ideal.div (∑ q : Fin 4096, (col q - colMean col) * (col q - colMean col)) (Ideal.ofBits .f32 0x45800000#32)

/-- The reciprocal square root of the variance plus the small offset (the float word the programs carry). -/
def colScale (col : Fin 4096 → EReal) : EReal :=
  Ideal.rsqrt (colVar col + Ideal.ofBits .f32 0x3A83126F#32)

/-- A column normalised by its own mean and biased variance, scaled by `γ`, shifted by `β`, cut off below at zero
    (the zero again the programs' float word). -/
def normCol (col : Fin 4096 → EReal) (γ β : EReal) (r : Fin 4096) : EReal :=
  max ((col r - colMean col) * colScale col * γ + β) (Ideal.ofBits .f32 0x00000000#32)

/-- The layer: entry (r, j) of the result. -/
def layer (x w : (⟨2, ![4096, 4096]⟩ : Shape).Idx → EReal) (b γ β : (⟨1, ![4096]⟩ : Shape).Idx → EReal)
    (r j : Fin 4096) : EReal :=
  normCol (fun q => dense x w b q j) (γ (ix1 j)) (β (ix1 j)) r

/-- The layer as an array. -/
def layerArr (x w : (⟨2, ![4096, 4096]⟩ : Shape).Idx → EReal) (b γ β : (⟨1, ![4096]⟩ : Shape).Idx → EReal) :
    (⟨2, ![4096, 4096]⟩ : Shape).Idx → EReal :=
  fun i => layer x w b γ β (i 0) (i 1)

/-- Inside group `g` the short sum is the long one: column `j = 256 g + c` meets only rows of its own group,
    and there the square of (256 g + k, 256 g + c) is the square of (k, c). -/
theorem dense_of_group (x w : (⟨2, ![4096, 4096]⟩ : Shape).Idx → EReal) (b : (⟨1, ![4096]⟩ : Shape).Idx → EReal)
    (xs : (⟨2, ![4096, 256]⟩ : Shape).Idx → EReal) (ws : (⟨2, ![256, 256]⟩ : Shape).Idx → EReal)
    (bs : (⟨2, ![1, 256]⟩ : Shape).Idx → EReal) (g : ℕ) (hg : g < 16) (r : Fin 4096) (c : Fin 256) (j : Fin 4096)
    (hj : j.val = 256 * g + c.val)
    (hx : ∀ (k : Fin 256) (K : Fin 4096), K.val = 256 * g + k.val → xs (ix2 r k) = x (ix2 r K))
    (hw : ∀ (k : Fin 256) (K : Fin 4096), K.val = 256 * g + k.val → ws (ix2 k c) = w (ix2 K j))
    (hb : bs (ix2 (0 : Fin 1) c) = b (ix1 j)) :
    denseGroup xs ws bs r c = dense x w b r j := by
  unfold denseGroup dense
  rw [hb]
  refine congrArg (· + b (ix1 j)) ?_
  let e : Fin 256 → Fin 4096 := fun k => ⟨256 * g + k.val, by have := k.isLt; omega⟩
  have he : Function.Injective e := fun a a' h => Fin.ext (by
    have h' : 256 * g + a.val = 256 * g + a'.val := congrArg Fin.val h
    omega)
  refine Fintype.sum_of_injective e he _ _ (fun K hK => ?_) (fun k => ?_)
  · have hne : K.val / 64 ≠ j.val / 64 := by
      intro heq
      apply hK
      have hK4 := K.isLt
      have hc := c.isLt
      refine ⟨⟨K.val - 256 * g, by omega⟩, Fin.ext ?_⟩
      show 256 * g + (K.val - 256 * g) = K.val
      omega
    rw [sameSquare_of_ne hne, mul_zero, mul_zero]
  · have hc := c.isLt
    have hk := k.isLt
    rw [hx k (e k) rfl, hw k (e k) rfl]
    have hs : sameSquare k.val c.val = sameSquare (e k).val j.val := by
      unfold sameSquare
      have : (k.val / 64 = c.val / 64) ↔ ((e k).val / 64 = j.val / 64) := by
        show _ ↔ ((256 * g + k.val) / 64 = j.val / 64)
        rw [hj]; omega
      exact if_congr this rfl rfl
    rw [hs]

end Cert.Layer

end
-- ==== Proof.RefLayer.lean ====
/-
  The reference program computes the layer of LayerSpec, entry by entry.

  Its mask is a Kronecker product of the 64 × 64 identity with a 64 × 64 block of ones, reshaped to
  4096 × 4096: entry (k, j) is the identity's entry (k / 64, j / 64) times 1, that is, 1 exactly when k
  and j lie in the same diagonal square.  The masked weights enter one matrix product over all 4096
  rows; the bias row is added; the column statistics are sums down the 4096 rows divided by 4096;
  the rest is entrywise.  Each stage is read at an index from the stage before it.
-/
import proofs.«176625_j39298950758467_2_alg».proof.Proof.Gen.ReferenceIdeal.Read
import proofs.«176625_j39298950758467_2_alg».proof.Proof.LayerSpec
import Idealize.ShloMosaic.PureOps.IdealRules
import Idealize.ShloMosaic.PureOps.Ideal.Laws

noncomputable section

namespace Cert.RefLayer

open Cert.ReferenceIdeal Cert.ReferenceIdeal.Gen Cert.ReferenceIdeal.Read Idealize.ShloMosaic Idealize.ShloMosaic.ValueIdx Cert.Layer

/-- Two square numbers below 64, as 32-bit words, compare equal exactly when they are equal (adding the zero
    word to the first changes nothing). -/
theorem eq_word : ∀ a, a < 64 → ∀ b, b < 64 →
    IntOp.cmpi .eq (IntOp.addi (BitVec.ofNat 32 a) 0#32) (BitVec.ofNat 32 b) = if a = b then 1#1 else 0#1 := by
  decide +kernel

/-- The float word 0x3F800000 is the number one. -/
theorem one_word : Ideal.ofBits .f32 0x3F800000#32 = 1 := IdealRules.sign_bit.ideal_onePat .f32

/-- The reference's mask at (k, j): one inside the diagonal squares, zero outside. -/
theorem mask_at (k j : Fin 4096) : val_main_v7 (F := Ideal) (ix2 k j) = sameSquare k.val j.val := by
  rw [val_main_v7_apply, val_main_call0_v4_apply, val_main_call0_v2_apply, val_main_call0_v0_apply, val_main_v5_apply,
    val_main_v4_apply, val_main_v3_apply, val_main_v0_apply, val_main_v1_apply, val_main_v2_apply, val_main_c_apply,
    val_main_call0_v3_apply, val_main_call0_v1_apply, val_main_v6_apply, val_main_cst_apply]
  have hk := k.isLt
  have hj := j.isLt
  show (((IntOp.cmpi .eq (IntOp.addi (BitVec.ofNat 32 ((k.val * 4096 + j.val) / 262144)) 0#32)
      (BitVec.ofNat 32 ((k.val * 4096 + j.val) / 64 % 64))).toNat : ℝ) : EReal) * Ideal.ofBits .f32 0x3F800000#32 = _
  rw [show (k.val * 4096 + j.val) / 262144 = k.val / 64 by omega, show (k.val * 4096 + j.val) / 64 % 64 = j.val / 64 by omega,
    eq_word (k.val / 64) (by omega) (j.val / 64) (by omega), one_word, mul_one]
  unfold sameSquare
  split <;> norm_num

variable (x w : (⟨S4096x4096, .f32⟩ : BufTy).Contents (Elt Ideal)) (b γ β : (⟨S4096, .f32⟩ : BufTy).Contents (Elt Ideal))

/-- The dense stage with the bias row added, at (r, j): the long masked sum. -/
theorem dense_at (r j : Fin 4096) : val_main_v12 (F := Ideal) x w b (ix2 r j) = dense x w b r j := by
  rw [val_main_v12_apply, val_main_v9_apply, val_main_v11_apply, val_main_v10_apply]
  unfold dense
  show (∑ k : Fin 4096, x (lidx_main_v9 (ix2 r j) k) * val_main_v8 (F := Ideal) w (ridx_main_v9 (ix2 r j) k))
      + b (idx_main_v10 (idx_main_v11 (ix2 r j))) = _
  have hb : idx_main_v10 (idx_main_v11 (ix2 r j)) = ix1 j := funext fun a => Fin.ext (by match a with | ⟨0, _⟩ => rfl)
  rw [hb]
  refine congrArg (· + b (ix1 j)) (Finset.sum_congr rfl fun k _ => ?_)
  have hl : lidx_main_v9 (ix2 r j) k = ix2 r k := funext fun a => Fin.ext (by match a with | ⟨0, _⟩ => rfl | ⟨1, _⟩ => rfl)
  have hr : ridx_main_v9 (ix2 r j) k = ix2 k j := funext fun a => Fin.ext (by match a with | ⟨0, _⟩ => rfl | ⟨1, _⟩ => rfl)
  rw [hl, hr, val_main_v8_apply, mask_at]
  rfl

/-- The column means: the sum down the rows (from the zero word) divided by the word for 4096. -/
theorem mean_at (j : Fin 4096) : val_main_v15 (F := Ideal) x w b (ix1 j) = colMean (fun q => dense x w b q j) := by
  rw [val_main_v15_apply, val_main_v13_apply, val_main_v14_apply, val_main_cst_1_apply, val_main_cst_0_apply]
  unfold colMean
  show Ideal.div (Ideal.ofBits .f32 0x00000000#32 + ∑ k : Fin 4096, val_main_v12 (F := Ideal) x w b (idx_main_v13 (ix1 j) k))
      (Ideal.ofBits .f32 0x45800000#32) = _
  rw [Ideal.ofBits_zero_f32, zero_add]
  refine congrArg (Ideal.div · _) (Finset.sum_congr rfl fun q _ => ?_)
  have hi : idx_main_v13 (ix1 j) q = ix2 q j := funext fun a => Fin.ext (by match a with | ⟨0, _⟩ => rfl | ⟨1, _⟩ => rfl)
  rw [hi, dense_at]

/-- An entry minus its column's mean (the reference forms this difference twice, the same way). -/
theorem centred_at (r j : Fin 4096) :
    val_main_v18 (F := Ideal) x w b (ix2 r j) = dense x w b r j - colMean (fun q => dense x w b q j) := by
  rw [val_main_v18_apply, val_main_v17_apply, val_main_v16_apply, dense_at]
  have hi : idx_main_v16 (idx_main_v17 (ix2 r j)) = ix1 j := funext fun a => Fin.ext (by match a with | ⟨0, _⟩ => rfl)
  rw [hi, mean_at]
  rfl

theorem centred_at' (r j : Fin 4096) :
    val_main_v25 (F := Ideal) x w b (ix2 r j) = dense x w b r j - colMean (fun q => dense x w b q j) := by
  rw [val_main_v25_apply, val_main_v24_apply, val_main_v23_apply, dense_at]
  have hi : idx_main_v23 (idx_main_v24 (ix2 r j)) = ix1 j := funext fun a => Fin.ext (by match a with | ⟨0, _⟩ => rfl)
  rw [hi, mean_at]
  rfl

/-- The column variances. -/
theorem var_at (j : Fin 4096) : val_main_v22 (F := Ideal) x w b (ix1 j) = colVar (fun q => dense x w b q j) := by
  rw [val_main_v22_apply, val_main_v20_apply, val_main_v21_apply, val_main_cst_3_apply, val_main_cst_2_apply]
  unfold colVar
  show Ideal.div (Ideal.ofBits .f32 0x00000000#32 + ∑ k : Fin 4096, val_main_v19 (F := Ideal) x w b (idx_main_v20 (ix1 j) k))
      (Ideal.ofBits .f32 0x45800000#32) = _
  rw [Ideal.ofBits_zero_f32, zero_add]
  refine congrArg (Ideal.div · _) (Finset.sum_congr rfl fun q _ => ?_)
  have hi : idx_main_v20 (ix1 j) q = ix2 q j := funext fun a => Fin.ext (by match a with | ⟨0, _⟩ => rfl | ⟨1, _⟩ => rfl)
  rw [hi, val_main_v19_apply, centred_at]
  rfl

/-- The column scales: the reciprocal square root of variance plus offset. -/
theorem scale_at (j : Fin 4096) : val_main_v28 (F := Ideal) x w b (ix1 j) = colScale (fun q => dense x w b q j) := by
  rw [val_main_v28_apply, val_main_v27_apply, val_main_v26_apply, val_main_cst_4_apply, var_at]
  rfl

/-- The reference's result at (r, j) is the layer's entry. -/
theorem result_at (r j : Fin 4096) : val_main_v38 (F := Ideal) x w b γ β (ix2 r j) = layer x w b γ β r j := by
  rw [val_main_v38_apply, val_main_v37_apply, val_main_v34_apply, val_main_v31_apply, val_main_v30_apply, val_main_v29_apply,
    val_main_v33_apply, val_main_v32_apply, val_main_v36_apply, val_main_v35_apply, val_main_call1_v0_apply,
    val_main_call1_cst_apply, centred_at']
  have h1 : idx_main_v29 (idx_main_v30 (ix2 r j)) = ix1 j := funext fun a => Fin.ext (by match a with | ⟨0, _⟩ => rfl)
  have h2 : idx_main_v32 (idx_main_v33 (ix2 r j)) = ix1 j := funext fun a => Fin.ext (by match a with | ⟨0, _⟩ => rfl)
  have h3 : idx_main_v35 (idx_main_v36 (ix2 r j)) = ix1 j := funext fun a => Fin.ext (by match a with | ⟨0, _⟩ => rfl)
  rw [h1, h2, h3, scale_at]
  rfl

/-- The reference's result array is the layer's array. -/
theorem result_eq : val_main_v38 (F := Ideal) x w b γ β = layerArr x w b γ β := by
  funext i
  obtain ⟨r, j, rfl⟩ : ∃ (r j : Fin 4096), i = ix2 r j := ⟨i 0, i 1, eq_ix2 i⟩
  exact result_at x w b γ β r j

end Cert.RefLayer

end
-- ==== Proof.KernelBlock.lean ====
/-
  What the kernel's body computes from one grid point's blocks, entry by entry.

  The body holds a 4096 × 256 slab of `x`, one 256 × 256 diagonal block of the weights and 256 entries each
  of bias, scale and shift.  It builds a 256 × 256 mask from two coordinate grids — row / 64 against
  column / 64, each quotient taken by the rounding-down rule for signed words, which on 0 … 255 is the plain
  quotient — multiplies the weights by it, forms slab · masked block (a sum over the 256 rows of the block)
  plus the bias row, and then normalises every column over the slab's 4096 rows exactly as the layer of
  LayerSpec does.  The body's value is cut into its stages here, and each stage is read at an index.
-/
import proofs.«176625_j39298950758467_2_alg».proof.Proof.Gen.KernelIdeal.Skeleton
import proofs.«176625_j39298950758467_2_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelBlock

open Cert.KernelIdeal Cert.KernelIdeal.Gen Idealize.ShloMosaic Idealize.ShloMosaic.ValueIdx Cert.Layer

/-! ## The mask -/

/-- The signed rounding-down quotient by 64 of a 32-bit word, as the body spells it: the truncating quotient,
    less one when the signs differ and the remainder is not zero. -/
def quot64 (n : BitVec 32) : BitVec 32 :=
  Scalar.select
    (IntOp.andi
      (IntOp.cmpi .ne (IntOp.subi ((IntOp.cmpi .sgt n 0#32).setWidth 32) ((IntOp.cmpi .slt n 0#32).setWidth 32))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- On the coordinates 0 … 255 that quotient is the natural one. -/
theorem quot64_small : ∀ k : Fin 256, quot64 (BitVec.ofNat 32 (0 * 256 + k.val)) = BitVec.ofNat 32 (k.val / 64) := by
  decide +kernel

/-- Two quotients below 4, as words, compare equal exactly when they are equal. -/
theorem eq_small : ∀ a, a < 4 → ∀ b, b < 4 →
    IntOp.cmpi .eq (BitVec.ofNat 32 a) (BitVec.ofNat 32 b) = if a = b then 1#1 else 0#1 := by
  decide +kernel

/-- The body's mask as a float vector. -/
def maskV : FVec Ideal S256x256 .f32 :=
  sitofp .f32 (extui 32 (cmpi .eq k0_pay2 (select (andi k0_pay4 k0_pay5) (subi k0_pay3 (broadcast S256x256 1#32)) k0_pay3)) natLt_1_32)

/-- The row grid's quotient at (k, c). -/
theorem rowq_at (k c : Fin 256) : k0_pay2 (ix2 k c) = BitVec.ofNat 32 (k.val / 64) :=
  quot64_small k

/-- The column grid's quotient at (k, c). -/
theorem colq_at (k c : Fin 256) :
    select (andi k0_pay4 k0_pay5) (subi k0_pay3 (broadcast S256x256 1#32)) k0_pay3 (ix2 k c) = BitVec.ofNat 32 (c.val / 64) :=
  quot64_small c

/-- The mask at (k, c): one where the two lie in the same 64-wide square, zero elsewhere. -/
theorem mask_at (k c : Fin 256) : maskV (ix2 k c) = sameSquare k.val c.val := by
  have hk := k.isLt
  have hc := c.isLt
  show ((((IntOp.cmpi .eq (k0_pay2 (ix2 k c))
      (select (andi k0_pay4 k0_pay5) (subi k0_pay3 (broadcast S256x256 1#32)) k0_pay3 (ix2 k c))).setWidth 32).toInt : ℝ) : EReal) = _
  rw [rowq_at, colq_at, eq_small (k.val / 64) (by omega) (c.val / 64) (by omega)]
  unfold sameSquare
  split <;> norm_num

/-! ## The body's value, cut into stages -/

/-- Slab times masked block, plus the bias row. -/
def denseV (ws : Vec Ideal S256x256 .f32) (xs : Vec Ideal S4096x256 .f32) (bs : Vec Ideal S1x256 .f32) : FVec Ideal S4096x256 .f32 :=
  addf
    (matmul dot_S4096x256_S256x256_S4096x256_1_0_0_1_n_n none (truncf .bf16 xs bitsLt_bf16_f32)
      (truncf .bf16 (mulf ws maskV) bitsLt_bf16_f32) (constant S4096x256 .f32 0x00000000#32))
    (broadcastTo S4096x256 (shapeCast S1x256 bs shapeCasts_S1x256_S1x256) broadcasts_S1x256_S4096x256)

/-- The sum down the 4096 rows of each column, as a 1 × 256 row, divided by the word for 4096. -/
def meanV (d : FVec Ideal S4096x256 .f32) : FVec Ideal S1x256 .f32 :=
  divf (shapeCast S1x256 (multiReduction .add [0] S256 d 0x00000000#32 reduces_S4096x256_S256 (.inl rfl) rfl) shapeCasts_S256_S1x256)
    (broadcast S1x256 (Scalar.ofBits .f32 0x45800000#32))

/-- Every entry less its column's mean. -/
def cenV (d : FVec Ideal S4096x256 .f32) : FVec Ideal S4096x256 .f32 :=
  subf d (broadcastTo S4096x256 (meanV d) broadcasts_S1x256_S4096x256)

/-- The reciprocal square root of each column's variance plus the offset. -/
def scaleV (d : FVec Ideal S4096x256 .f32) : FVec Ideal S1x256 .f32 :=
  rsqrt (addf (meanV (mulf (cenV d) (cenV d))) (broadcast S1x256 (Scalar.ofBits .f32 0x3A83126F#32)))

/-- Normalised, scaled, shifted, cut off below at zero. -/
def outV (d : FVec Ideal S4096x256 .f32) (gs βs : Vec Ideal S1x256 .f32) : FVec Ideal S4096x256 .f32 :=
  maximumf
    (addf
      (mulf (mulf (cenV d) (broadcastTo S4096x256 (scaleV d) broadcasts_S1x256_S4096x256))
        (broadcastTo S4096x256 (shapeCast S1x256 gs shapeCasts_S1x256_S1x256) broadcasts_S1x256_S4096x256))
      (broadcastTo S4096x256 (shapeCast S1x256 βs shapeCasts_S1x256_S1x256) broadcasts_S1x256_S4096x256))
    (broadcast S4096x256 (Scalar.ofBits .f32 0x00000000#32))

/-- The body's stored value is those stages composed. -/
theorem pay_eq (ws : Vec Ideal S256x256 .f32) (xs : Vec Ideal S4096x256 .f32) (bs gs βs : Vec Ideal S1x256 .f32) :
    k0_pay1 (k0_pay6 k0_pay2 k0_pay3 k0_pay4 k0_pay5 ws xs bs gs βs) (k0_pay7 (F := Ideal)) = outV (denseV ws xs bs) gs βs := rfl

/-! ## Each stage at an index -/

/-- The coordinates of the matrix product's operand indices: the left operand is read at (row of the entry,
    contraction coordinate), the right one at (contraction coordinate, column of the entry). -/
theorem lhs_row (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_contr (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_contr (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_col (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The dense stage at (r, c): the sum over the block's 256 rows, plus the bias entry. -/
theorem dense_at (ws : Vec Ideal S256x256 .f32) (xs : Vec Ideal S4096x256 .f32) (bs : Vec Ideal S1x256 .f32) (r : Fin 4096) (c : Fin 256) :
    denseV ws xs bs (ix2 r c) = denseGroup xs ws bs r c := by
  unfold denseV denseGroup
  rw [addf_apply, broadcastTo_1b_ab_apply, shapeCast_self]
  refine congrArg (· + bs (ix2 (0 : Fin 1) c)) ?_
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k :=
    funext fun a => Fin.ext (by
      match a with
      | ⟨0, _⟩ => exact lhs_row _ _
      | ⟨1, _⟩ => exact (lhs_contr _ _).trans hk)
  have er : dot_S4096x256_S256x256_S4096x256_1_0_0_1_n_n.rhsIdx (ix2 r c) ((contrEquiv1 dot_S4096x256_S256x256_S4096x256_1_0_0_1_n_n 256 rfl rfl).symm k) = ix2 k c :=
    funext fun a => Fin.ext (by
      match a with
      | ⟨0, _⟩ => exact (rhs_contr _ _).trans hk
      | ⟨1, _⟩ => exact rhs_col _ _)
  rw [el, er, truncf_apply, truncf_apply, mulf_apply, mask_at]

/-- A sum down the rows at column c. -/
theorem colsum_at (d : FVec Ideal S4096x256 .f32) (c : Fin 256) :
    multiReduction .add [0] S256 d 0x00000000#32 reduces_S4096x256_S256 (.inl rfl) rfl (ix1 c) = ∑ q : Fin 4096, d (ix2 q c) := by
  refine (Ideal.multiReduction_add_single d 0x00000000#32 reduces_S4096x256_S256 (.inl rfl) rfl (ix1 c)).trans ?_
  refine Finset.sum_congr rfl fun q _ => congrArg d ?_
  exact funext fun a => Fin.ext (by match a with | ⟨0, _⟩ => rfl | ⟨1, _⟩ => rfl)

/-- The mean row at column c. -/
theorem mean_at (d : FVec Ideal S4096x256 .f32) (c : Fin 256) :
    meanV d (ix2 (0 : Fin 1) c) = colMean (fun q => d (ix2 q c)) := by
  unfold meanV colMean
  rw [divf_apply, shapeCast_a_1a_apply, colsum_at]
  rfl

/-- A centred entry. -/
theorem cen_at (d : FVec Ideal S4096x256 .f32) (r : Fin 4096) (c : Fin 256) :
    cenV d (ix2 r c) = d (ix2 r c) - colMean (fun q => d (ix2 q c)) := by
  unfold cenV
  rw [subf_apply, broadcastTo_1b_ab_apply, mean_at]

/-- The scale row at column c. -/
theorem scale_at (d : FVec Ideal S4096x256 .f32) (c : Fin 256) :
    scaleV d (ix2 (0 : Fin 1) c) = colScale (fun q => d (ix2 q c)) := by
  unfold scaleV colScale colVar
  show Ideal.rsqrt (meanV (mulf (cenV d) (cenV d)) (ix2 (0 : Fin 1) c) + Ideal.ofBits .f32 0x3A83126F#32) = _
  rw [mean_at]
  unfold colMean
  refine congrArg (fun s => Ideal.rsqrt (Ideal.div s _ + _)) (Finset.sum_congr rfl fun q _ => ?_)
  show mulf (cenV d) (cenV d) (ix2 q c) = _
  rw [mulf_apply, cen_at]
  rfl

/-- The body's value at (r, c). -/
theorem out_at (d : FVec Ideal S4096x256 .f32) (gs βs : Vec Ideal S1x256 .f32) (r : Fin 4096) (c : Fin 256) :
    outV d gs βs (ix2 r c) = normCol (fun q => d (ix2 q c)) (gs (ix2 (0 : Fin 1) c)) (βs (ix2 (0 : Fin 1) c)) r := by
  unfold outV normCol
  rw [maximumf_apply, addf_apply, mulf_apply, mulf_apply, cen_at, broadcastTo_1b_ab_apply, broadcastTo_1b_ab_apply,
    broadcastTo_1b_ab_apply, scale_at, shapeCast_self, shapeCast_self]
  rfl

/-- The body's stored value at (r, c): the group's dense column c normalised over the slab's rows. -/
theorem payload_at (ws : Vec Ideal S256x256 .f32) (xs : Vec Ideal S4096x256 .f32) (bs gs βs : Vec Ideal S1x256 .f32)
    (r : Fin 4096) (c : Fin 256) :
    k0_pay1 (k0_pay6 k0_pay2 k0_pay3 k0_pay4 k0_pay5 ws xs bs gs βs) (k0_pay7 (F := Ideal)) (ix2 r c)
      = normCol (fun q => denseGroup xs ws bs q c) (gs (ix2 (0 : Fin 1) c)) (βs (ix2 (0 : Fin 1) c)) r := by
  rw [pay_eq, out_at]
  refine congrArg (fun col => normCol col _ _ r) (funext fun q => ?_)
  exact dense_at ws xs bs q c

end Cert.KernelBlock

end
-- ==== Proof.KernelLayer.lean ====
/-
  The kernel's result array is the layer of LayerSpec.

  Grid point t (of 16) works on column group t: it reads rows 0 … 4095, columns 256 t … 256 t + 255 of `x`,
  the diagonal block (256 t …, 256 t …) of the weights and entries 256 t … of bias, scale and shift (each of
  the three first reshaped on the host from a vector to a 1 × 4096 row), and writes rows 0 … 4095, columns
  256 t … of the result.  The whole batch is inside every block, so the column statistics a point computes are
  the layer's own; inside its group the dense stage is the layer's by `dense_of_group`.  The 16 column groups
  cover the result array, so the array is the layer's array.
-/
import proofs.«176625_j39298950758467_2_alg».proof.Proof.Gen.KernelIdeal.Value
import proofs.«176625_j39298950758467_2_alg».proof.Proof.KernelBlock
import Idealize.ShloMosaic.Lib.Pipeline.Value
import Idealize.ShloMosaic.Lib.ValueLayout
import Idealize.ShloMosaic.Lib.StableHlo.Run

noncomputable section

namespace Cert.KernelLayer

open Cert.KernelIdeal Cert.KernelIdeal.Gen Idealize.ShloMosaic Idealize.ShloMosaic.TcCoe Idealize.SL.Sem
open Idealize.ShloMosaic.ValueIdx Cert.Layer
open Idealize.ShloMosaic.Pipeline (Dat)

/-! ## One block entry, over plain arrays -/

/-- If the five blocks are the group-`g` pieces of five arrays, the body's value at local entry (r, c) is the layer's
    entry (r, 256 g + c) of those arrays. -/
theorem block_entry (x w : (⟨2, ![4096, 4096]⟩ : Shape).Idx → EReal) (b γ β : (⟨1, ![4096]⟩ : Shape).Idx → EReal)
    (xs : Vec Ideal S4096x256 .f32) (ws : Vec Ideal S256x256 .f32) (bs gs βs : Vec Ideal S1x256 .f32) (g : ℕ) (hg : g < 16)
    (hx : ∀ (r : Fin 4096) (k : Fin 256) (K : Fin 4096), K.val = 256 * g + k.val → xs (ix2 r k) = x (ix2 r K))
    (hw : ∀ (k c : Fin 256) (K J : Fin 4096), K.val = 256 * g + k.val → J.val = 256 * g + c.val → ws (ix2 k c) = w (ix2 K J))
    (hb : ∀ (c : Fin 256) (J : Fin 4096), J.val = 256 * g + c.val → bs (ix2 (0 : Fin 1) c) = b (ix1 J))
    (hγ : ∀ (c : Fin 256) (J : Fin 4096), J.val = 256 * g + c.val → gs (ix2 (0 : Fin 1) c) = γ (ix1 J))
    (hβ : ∀ (c : Fin 256) (J : Fin 4096), J.val = 256 * g + c.val → βs (ix2 (0 : Fin 1) c) = β (ix1 J))
    (r : Fin 4096) (c : Fin 256) (J : Fin 4096) (hJ : J.val = 256 * g + c.val) :
    k0_pay1 (k0_pay6 k0_pay2 k0_pay3 k0_pay4 k0_pay5 ws xs bs gs βs) (k0_pay7 (F := Ideal)) (ix2 r c) = layer x w b γ β r J := by
  rw [KernelBlock.payload_at, hγ c J hJ, hβ c J hJ]
  unfold layer
  refine congrArg (fun col => normCol col _ _ r) (funext fun q => ?_)
  exact dense_of_group x w b xs ws bs g hg q c J hJ (fun k K hK => hx q k K hK) (fun k K hK => hw k c K J hK hJ) (hb c J hJ)

/-! ## The blocks of a grid point -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 points: `x` and the result move along the columns, the weights along the
    diagonal, the three rows along their one long axis. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 16 := lt_of_lt_of_eq t.isLt N_0

/-- The three rows as the region finds them: the host has reshaped each vector to 1 × 4096. -/
theorem V_bias (c : Dev nD) :
    (V m c main_v0 : S1x4096.Idx → EReal) = shapeCast S1x4096 (m ((c : Thread nD τ).loc main_arg2)) shapeCasts_S4096_S1x4096 := by
  dsimp only [V, hostOps0]; after_results; rfl
theorem V_scale (c : Dev nD) :
    (V m c main_v1 : S1x4096.Idx → EReal) = shapeCast S1x4096 (m ((c : Thread nD τ).loc main_arg3)) shapeCasts_S4096_S1x4096 := by
  dsimp only [V, hostOps0]; after_results; rfl
theorem V_shift (c : Dev nD) :
    (V m c main_v2 : S1x4096.Idx → EReal) = shapeCast S1x4096 (m ((c : Thread nD τ).loc main_arg4)) shapeCasts_S4096_S1x4096 := by
  dsimp only [V, hostOps0]; after_results; rfl

/-- The slab of `x` at point t: columns 256 t … of every row. -/
theorem x_blk (c : Dev nD) (t : Fin cfg0.N) (r : Fin 4096) (k : Fin 256) (K : Fin 4096) (hK : K.val = 256 * t.val + k.val) :
    (iblk m c 0 t : Vec Ideal S4096x256 .f32) (ix2 r k) = m ((c : Thread nD τ).loc main_arg0) (ix2 r K) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 4096 + 1 * r.val = r.val; rw [e0]; omega
  | ⟨1, _⟩ => show win0_0.index t (1 : Fin 2) * 256 + 1 * k.val = K.val; rw [e1, hK]; omega

/-- The weights' block at point t: the diagonal block (256 t …, 256 t …). -/
theorem w_blk (c : Dev nD) (t : Fin cfg0.N) (k cc : Fin 256) (K J : Fin 4096) (hK : K.val = 256 * t.val + k.val)
    (hJ : J.val = 256 * t.val + cc.val) :
    (iblk m c 1 t : Vec Ideal S256x256 .f32) (ix2 k cc) = m ((c : Thread nD τ).loc main_arg1) (ix2 K J) := by
  obtain ⟨-, -, e0, e1, -⟩ := idx_facts t
  show V m c main_arg1 (((cfg0.win 1).blk t).view.emb (ix2 k cc)) = _
  rw [V_main_arg1]
  refine congrArg _ (funext fun a => Fin.ext ?_)
  match a with
  | ⟨0, _⟩ => show win0_1.index t (0 : Fin 2) * 256 + 1 * k.val = K.val; rw [e0, hK]; omega
  | ⟨1, _⟩ => show win0_1.index t (1 : Fin 2) * 256 + 1 * cc.val = J.val; rw [e1, hJ]; omega

/-- The bias entries at point t. -/
theorem b_blk (c : Dev nD) (t : Fin cfg0.N) (cc : Fin 256) (J : Fin 4096) (hJ : J.val = 256 * t.val + cc.val) :
    (iblk m c 2 t : Vec Ideal S1x256 .f32) (ix2 (0 : Fin 1) cc) = m ((c : Thread nD τ).loc main_arg2) (ix1 J) := by
  obtain ⟨-, -, -, -, e0, e1, -⟩ := idx_facts t
  show (V m c main_v0 : S1x4096.Idx → EReal) (((cfg0.win 2).blk t).view.emb (ix2 (0 : Fin 1) cc)) = _
  rw [V_bias]
  have he : ((cfg0.win 2).blk t).view.emb (ix2 (0 : Fin 1) cc) = ix2 (0 : Fin 1) J := funext fun a => Fin.ext (by
    match a with
    | ⟨0, _⟩ => show win0_2.index t (0 : Fin 2) * 1 + 1 * 0 = 0; rw [e0]
    | ⟨1, _⟩ => show win0_2.index t (1 : Fin 2) * 256 + 1 * cc.val = J.val; rw [e1, hJ]; omega)
  rw [he, shapeCast_a_1a_apply]

/-- The scale entries at point t. -/
theorem g_blk (c : Dev nD) (t : Fin cfg0.N) (cc : Fin 256) (J : Fin 4096) (hJ : J.val = 256 * t.val + cc.val) :
    (iblk m c 3 t : Vec Ideal S1x256 .f32) (ix2 (0 : Fin 1) cc) = m ((c : Thread nD τ).loc main_arg3) (ix1 J) := by
  obtain ⟨-, -, -, -, -, -, e0, e1, -⟩ := idx_facts t
  show (V m c main_v1 : S1x4096.Idx → EReal) (((cfg0.win 3).blk t).view.emb (ix2 (0 : Fin 1) cc)) = _
  rw [V_scale]
  have he : ((cfg0.win 3).blk t).view.emb (ix2 (0 : Fin 1) cc) = ix2 (0 : Fin 1) J := funext fun a => Fin.ext (by
    match a with
    | ⟨0, _⟩ => show win0_3.index t (0 : Fin 2) * 1 + 1 * 0 = 0; rw [e0]
    | ⟨1, _⟩ => show win0_3.index t (1 : Fin 2) * 256 + 1 * cc.val = J.val; rw [e1, hJ]; omega)
  rw [he, shapeCast_a_1a_apply]

/-- The shift entries at point t. -/
theorem s_blk (c : Dev nD) (t : Fin cfg0.N) (cc : Fin 256) (J : Fin 4096) (hJ : J.val = 256 * t.val + cc.val) :
    (iblk m c 4 t : Vec Ideal S1x256 .f32) (ix2 (0 : Fin 1) cc) = m ((c : Thread nD τ).loc main_arg4) (ix1 J) := by
  obtain ⟨-, -, -, -, -, -, -, -, e0, e1, -⟩ := idx_facts t
  show (V m c main_v2 : S1x4096.Idx → EReal) (((cfg0.win 4).blk t).view.emb (ix2 (0 : Fin 1) cc)) = _
  rw [V_shift]
  have he : ((cfg0.win 4).blk t).view.emb (ix2 (0 : Fin 1) cc) = ix2 (0 : Fin 1) J := funext fun a => Fin.ext (by
    match a with
    | ⟨0, _⟩ => show win0_4.index t (0 : Fin 2) * 1 + 1 * 0 = 0; rw [e0]
    | ⟨1, _⟩ => show win0_4.index t (1 : Fin 2) * 256 + 1 * cc.val = J.val; rw [e1, hJ]; omega)
  rw [he, shapeCast_a_1a_apply]

/-! ## From blocks to the array -/

/-- The layer of the five argument arrays as launched, on core `c`. -/
abbrev result (c : Dev nD) : Buf (Elt Ideal) ((c : Thread nD τ).loc main_v3) :=
  layerArr (m ((c : Thread nD τ).loc main_arg0)) (m ((c : Thread nD τ).loc main_arg1)) (m ((c : Thread nD τ).loc main_arg2))
    (m ((c : Thread nD τ).loc main_arg3)) (m ((c : Thread nD τ).loc main_arg4))

/-- What point t writes back is block t of the layer's array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S256x256) hz, View.ld_unit_zero (S := S4096x256) hz, View.ld_unit_zero (S := S1x256) hz]
  obtain ⟨-, -, -, -, -, -, -, -, -, -, e0, e1⟩ := idx_facts t
  funext y
  obtain ⟨r, cc, rfl⟩ : ∃ (r : Fin 4096) (cc : Fin 256), y = ix2 r cc := ⟨y 0, y 1, eq_ix2 y⟩
  have ht := point_lt t
  have hc := cc.isLt
  let J : Fin 4096 := ⟨256 * t.val + cc.val, by omega⟩
  have he : ((cfg0.win 5).blk t).view.emb (ix2 r cc) = ix2 r J := funext fun a => Fin.ext (by
    match a with
    | ⟨0, _⟩ => show win0_5.index t (0 : Fin 2) * 4096 + 1 * r.val = r.val; rw [e0]; omega
    | ⟨1, _⟩ => show win0_5.index t (1 : Fin 2) * 256 + 1 * cc.val = 256 * t.val + cc.val; rw [e1]; omega)
  show k0_pay1 (k0_pay6 k0_pay2 k0_pay3 k0_pay4 k0_pay5 (iblk m c 1 t) (iblk m c 0 t) (iblk m c 2 t) (iblk m c 3 t) (iblk m c 4 t))
      (k0_pay7 (F := Ideal)) (ix2 r cc) = result m c (((cfg0.win 5).blk t).view.emb (ix2 r cc))
  rw [he]
  exact block_entry (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) t.val ht
    (fun r k K hK => x_blk m c t r k K hK) (fun k c' K J' hK hJ => w_blk m c t k c' K J' hK hJ)
    (fun c' J' hJ => b_blk m c t c' J' hJ) (fun c' J' hJ => g_blk m c t c' J' hJ) (fun c' J' hJ => s_blk m c t c' J' hJ)
    r cc J rfl

/-- An index lies in point t's block iff each coordinate lies in the block's range on its axis. -/
theorem mem_blk (t : Fin cfg0.N) (i : S4096x4096.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v3).slice (win0_5.rect t)).set ↔ _
  rw [View.set_slice_whole, Rect.mem_set_unit]
  exact Iff.rfl

/-- Every index of the result lies in the block of its column's group. -/
theorem cover (i : S4096x4096.Idx) : ∃ t : Fin cfg0.N, (cfg0.win 5).flush t = true ∧ i ∈ ((cfg0.win 5).blk t).view.set := by
  have h0 : (i 0).val < 4096 := (i 0).isLt
  have h1 : (i 1).val < 4096 := (i 1).isLt
  have hN : cfg0.N = 16 := N_0
  let t : Fin cfg0.N := ⟨(i 1).val / 256, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + 4096
    rw [e0]; omega
  | ⟨1, _⟩ =>
    show win0_5.index t (1 : Fin 2) * 256 ≤ (i 1).val ∧ (i 1).val < win0_5.index t (1 : Fin 2) * 256 + 256
    rw [e1]
    show (i 1).val / 256 * 256 ≤ (i 1).val ∧ (i 1).val < (i 1).val / 256 * 256 + 256
    omega

/-- The result array after the run is the layer's array. -/
theorem final (c : Dev nD) : (dats m 0 c).arrAt 5 cfg0.N = result m c :=
  (dats m 0 c).arrAt_eq_of_cover 5 (result m c) (fun t _ => flushed_eq m c t) cover

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelLayer

end
-- ==== Proof.lean ====
/-
  A dense layer restricted to the 64 × 64 diagonal squares of its weight matrix, with bias, batch
  normalisation over the 4096 rows of the batch (mean, biased variance, reciprocal square root of variance plus
  a small offset, per-column scale and shift) and a cut-off at zero: the kernel against its reference, on the
  extended reals.

  The reference multiplies the whole 4096 × 4096 weight matrix by a 0/1 mask of the diagonal squares and
  contracts over all 4096 rows.  The kernel walks 16 groups of 256 columns; for a group it keeps only the
  256 × 256 diagonal block of the weights, masks inside it the three off-diagonal squares of each row of
  squares, and contracts over the block's 256 rows.  For a column of the group every other row of the long sum
  carries the mask entry 0, and 0 absorbs every extended real under multiplication, so the long sum is the
  short one (Proof/LayerSpec.lean, `dense_of_group`); this needs no entry to be finite, and the precondition is not
  opened.  Every group's block holds the whole batch, so the column statistics the kernel computes per block are
  the reference's; the divisor 4096, the variance offset and the cut-off zero are the same float words in both
  programs and are never evaluated, nor is any rounding to the narrower float format, which changes nothing on the
  extended reals.

  Proof/LayerSpec.lean states the layer as one function of the five argument arrays and proves the law between
  the two sums; Proof/RefLayer.lean reads the reference's run, stage by stage, as that function;
  Proof/KernelBlock.lean reads the kernel body's value at an index of a block; Proof/KernelLayer.lean identifies
  the blocks of a grid point with the pieces of the argument arrays and covers the result array by the 16 column
  groups.  The three frames are the generated ones (the reference's is its run with the result dropped); the kernel
  has no rewrite to justify between its printed form and its idealised form.
-/
import proofs.«176625_j39298950758467_2_alg».proof.Defs
import proofs.«176625_j39298950758467_2_alg».proof.Proof.Gen.Kernel
import proofs.«176625_j39298950758467_2_alg».proof.Proof.Gen.Kernel.Frame
import proofs.«176625_j39298950758467_2_alg».proof.Proof.Gen.KernelIdeal
import proofs.«176625_j39298950758467_2_alg».proof.Proof.Gen.KernelIdeal.Frame
import proofs.«176625_j39298950758467_2_alg».proof.Proof.Gen.KernelIdeal.Value
import proofs.«176625_j39298950758467_2_alg».proof.Proof.Gen.ReferenceIdeal
import proofs.«176625_j39298950758467_2_alg».proof.Proof.Gen.ReferenceIdeal.Run
import proofs.«176625_j39298950758467_2_alg».proof.Proof.Gen.ReferenceIdeal.Read
import proofs.«176625_j39298950758467_2_alg».proof.Proof.Gen.Pre_finite_inputs
import proofs.«176625_j39298950758467_2_alg».proof.Proof.RefLayer
import proofs.«176625_j39298950758467_2_alg».proof.Proof.KernelLayer
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealised kernel. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their
    result arrays: the kernel by its 16 column groups, the reference by its one long contraction. -/
theorem algebraic : Cert.algebraic_KernelIdeal_ReferenceIdeal := by
  intro m ρ m' ρ' _ hagree
  refine ⟨fun c => Cert.KernelLayer.result m c, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefLayer.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
